-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192 : Shape := ⟨1, ![8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4096x8192 .f32) (main_arg1 : FVec F S8192 .f32) (main_arg2 : FVec F S8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4096x8192 : Shape := ⟨2, ![4096, 8192]⟩
abbrev S8192 : Shape := ⟨1, ![8192]⟩
abbrev S_ : Shape := ⟨0, ![]⟩
abbrev S1x8192 : Shape := ⟨2, ![1, 8192]⟩
abbrev S256x8192 : Shape := ⟨2, ![256, 8192]⟩

abbrev nBuf : Space → Nat
  | .hbm => 21
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S1x8192, .f32⟩
  | .hbm, ⟨19, _⟩ => ⟨S1x8192, .f32⟩
  | .hbm, ⟨20, _⟩ => ⟨S4096x8192, .f32⟩
  | .local _ .vmem, ⟨0, _⟩ => ⟨S256x8192, .f32⟩
  | .local _ .vmem, ⟨1, _⟩ => ⟨S256x8192, .f32⟩
  | .local _ .vmem, ⟨2, _⟩ => ⟨S1x8192, .f32⟩
  | .local _ .vmem, ⟨3, _⟩ => ⟨S1x8192, .f32⟩
  | .local _ .vmem, ⟨4, _⟩ => ⟨S256x8192, .f32⟩
  | .local _ .vmem, ⟨5, _⟩ => ⟨S256x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S8192_S_d0 : S8192.ReducesTo [0] S_
  h_S_ : 0 < S_.numel
  bcast_S_S8192 : S_.BroadcastsInDim S8192 (![] : Fin 0 → Fin S8192.rank)
  shapeCasts_S8192_S1x8192 : S8192.ShapeCasts S1x8192
  inb_S256x8192_S256x8192_0_0 : ∀ a, (![0, 0] : Fin 2 → Nat) a + S256x8192.size a ≤ S256x8192.size a
  h_S256x8192 : 0 < S256x8192.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S4096x8192.size a
  hwx0_3 : ∀ i : grid0.Coords, EltTy.bits .f32 = 32 ∨ (Rect.block (s := S4096x8192) S256x8192.size (cc0_transform_3 i) (hinb0_3 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S8192 : Shape := ⟨1, ![8192]⟩
abbrev S_ : Shape := ⟨0, ![]⟩
abbrev S1x8192 : Shape := ⟨2, ![1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S1x8192, .f32⟩
  | .hbm, ⟨19, _⟩ => ⟨S4096x8192, .f32⟩
  | .hbm, ⟨20, _⟩ => ⟨S4096x8192, .f32⟩
  | .hbm, ⟨21, _⟩ => ⟨S1x8192, .f32⟩
  | .hbm, ⟨22, _⟩ => ⟨S4096x8192, .f32⟩
  | .hbm, ⟨23, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)

variable [Facts₀]

class Facts : Prop extends Facts₀ where

variable [Facts]
-- ==== Proof.Spec.lean ====
/-
  The function both programs compute.

  The result is a 4096 × 8192 array obtained from the input array `x` by scaling every column by one number and
  shifting it by another:

      out (r, k) = x (r, k) · q k + b k          (r < 4096, k < 8192),

  where `q` and `b` are vectors of length 8192. For this certificate `b` is the bias argument and `q` is the
  ternary quantisation of the weight argument `w` — sign (sign (w + θ) + sign (w − θ)) with θ = 0.7 · (Σ |w|) / 8192 —
  which BOTH programs compute on the host by the same operations with the same literals, before anything else. The
  proof therefore treats `q` as one vector and never looks inside it: the only thing to show is that each program
  applies the displayed formula to its three operands.

  No law of arithmetic joins the two sides. The kernel multiplies a block of 256 rows of `x` by the row `q`
  broadcast down the block and adds the row `b` broadcast likewise; the reference broadcasts `q` and `b` to the
  whole array first. At each index both evaluate the same product and the same sum of the same three extended reals,
  so the statement holds for every input, infinite entries included, and the finiteness precondition is never used.
-/
import Idealize.ShloMosaic.PureOps.Ideal
import Idealize.ShloMosaic.Lib.ValueIdx

noncomputable section

namespace Cert.ScaleShift

open Idealize.ShloMosaic Idealize.ShloMosaic.ValueIdx

/-- The shape of the input and of the result: 4096 rows of 8192 columns. -/
abbrev Mat : Shape := ⟨2, ![4096, 8192]⟩
/-- The shape of the scale and of the shift: one number per column. -/
abbrev Row : Shape := ⟨1, ![8192]⟩

/-- The column of a matrix index, as an index of a length-8192 vector. -/
abbrev colOf (i : Mat.Idx) : Row.Idx := fun a => match a with
  | ⟨0, _⟩ => ⟨(i 1).val, (i 1).isLt⟩

/-- The column of the index (r, k) is k. -/
theorem colOf_ix2 (r : Fin 4096) (k : Fin 8192) : colOf (ix2 r k) = ix1 k :=
  funext fun a => match a with | ⟨0, _⟩ => rfl

/-- Scale column k of `x` by `q k` and shift it by `b k`, on the extended reals. -/
def scaleShift (x : FVec Ideal Mat .f32) (q b : FVec Ideal Row .f32) : FVec Ideal Mat .f32 :=
  fun i => x i * q (colOf i) + b (colOf i)

/-- The formula at the index (r, k). -/
theorem scaleShift_apply (x : FVec Ideal Mat .f32) (q b : FVec Ideal Row .f32) (r : Fin 4096) (k : Fin 8192) :
    scaleShift x q b (ix2 r k) = x (ix2 r k) * q (ix1 k) + b (ix1 k) := by
  unfold scaleShift
  rw [colOf_ix2]

end Cert.ScaleShift

end
-- ==== Proof.RefSide.lean ====
/-
  The reference is the column scale-and-shift.

  The reference's last stage is x · Q + B, where Q and B are the quantised weight vector and the bias, each first
  laid out as a 1 × 8192 row and then repeated down the 4096 rows. Read at the index (r, k) the two layout steps
  pick entry k of the vector, whatever r is, so the stage is x (r, k) · q k + b k: the formula of the
  specification, with q the reference's own quantisation stage, left unopened.
-/
import proofs.«108378_j27736898797833_1_alg».proof.Proof.Gen.ReferenceIdeal.Read
import proofs.«108378_j27736898797833_1_alg».proof.Proof.Spec

noncomputable section

namespace Cert.ScaleShift

open Idealize.ShloMosaic Idealize.ShloMosaic.ValueIdx
open Cert.ReferenceIdeal Cert.ReferenceIdeal.Read

/-- The quantised weight vector: the reference's stage that holds sign (sign (w + θ) + sign (w − θ)). It is only
    ever compared with itself, so nothing below depends on what it computes. -/
abbrev quantised (w : FVec Ideal Row .f32) : FVec Ideal Row .f32 := val_main_v11 (F := Ideal) w

/-- Repeating a vector along a new leading axis of length one and then down 4096 rows reads, at (r, k), entry k:
    the composite of the two index maps the layout stages use is the column. -/
theorem rowThenRows_index (r : Fin 4096) (k : Fin 8192) :
    idx_main_v12 (idx_main_v13 (ix2 r k)) = ix1 k :=
  funext fun a => match a with | ⟨0, _⟩ => rfl

/-- The same for the bias, whose two layout stages use the same index maps under other names. -/
theorem rowThenRows_index_bias (r : Fin 4096) (k : Fin 8192) :
    idx_main_v15 (idx_main_v16 (ix2 r k)) = ix1 k :=
  funext fun a => match a with | ⟨0, _⟩ => rfl

/-- The reference's result is the column scale-and-shift of its three arguments. -/
theorem reference_eq (x : FVec Ideal Mat .f32) (w b : FVec Ideal Row .f32) :
    val_main_v17 (F := Ideal) x w b = scaleShift x (quantised w) b := by
  funext i
  obtain ⟨r, k, rfl⟩ : ∃ (r : Fin 4096) (k : Fin 8192), i = ix2 r k := ⟨i 0, i 1, eq_ix2 i⟩
  rw [scaleShift_apply, val_main_v17_apply, val_main_v14_apply, val_main_v13_apply, val_main_v12_apply,
    val_main_v16_apply, val_main_v15_apply, rowThenRows_index, rowThenRows_index_bias]
  rfl

end Cert.ScaleShift

end
-- ==== Proof.KernelSide.lean ====
/-
  The kernel's result array is the column scale-and-shift.

  The kernel walks the 4096 rows in 16 blocks of 256 rows. At block t it multiplies rows 256·t … 256·t + 255 of
  `x` by a 1 × 8192 row repeated down the block and adds a second such row. The two rows are written by the host
  before the kernel starts: the first is the quantised weight vector reshaped to 1 × 8192, the second the bias
  reshaped likewise, and both are the same at every block. So block t of the result holds, at (p, k),

      x (256·t + p, k) · q k + b k,

  which is the column scale-and-shift read at row 256·t + p. The 16 blocks are disjoint and together contain every
  row, so the whole result array is that function.
-/
import proofs.«108378_j27736898797833_1_alg».proof.Proof.Gen.KernelIdeal.Value
import proofs.«108378_j27736898797833_1_alg».proof.Proof.RefSide
import Idealize.ShloMosaic.Lib.Pipeline.Value
import Idealize.ShloMosaic.Lib.StableHlo.Run

noncomputable section

namespace Cert.KernelIdeal.ScaleShiftValue

open Cert.KernelIdeal Cert.KernelIdeal.Gen Idealize.ShloMosaic Idealize.ShloMosaic.TcCoe Idealize.SL.Sem
open Idealize.ShloMosaic.Pipeline (Dat)
open Idealize.ShloMosaic.ValueIdx
open Cert.ScaleShift (scaleShift quantised colOf)

variable (m : (ℓ : Loc nD τ sig) → Buf (Elt Ideal) ℓ) (ρ : Dev nD → PrngReg)

/-! ## The two rows the host writes before the kernel starts -/

/-- The scale row: the quantised weight vector, reshaped from length 8192 to 1 × 8192. The host operations that
    compute it are the reference's, one for one, so it is the reference's quantisation stage of the same argument. -/
theorem scaleRow_eq (c : Dev nD) :
    (V m c main_v12 : S1x8192.Idx → Ideal .f32)
      = shapeCast S1x8192 (quantised (m ((c : Thread nD τ).loc main_arg1))) shapeCasts_S8192_S1x8192 := by
  dsimp only [Gen.V, Gen.hostOps0]; after_results; rfl

/-- The shift row: the bias, reshaped from length 8192 to 1 × 8192. -/
theorem shiftRow_eq (c : Dev nD) :
    (V m c main_v13 : S1x8192.Idx → Ideal .f32)
      = shapeCast S1x8192 (m ((c : Thread nD τ).loc main_arg2)) shapeCasts_S8192_S1x8192 := by
  dsimp only [Gen.V, Gen.hostOps0]; after_results; rfl

/-! ## Where each block sits -/

theorem zeroOffsets : (![0, 0] : Fin 2 → Nat) = fun _ => 0 := funext fun a => by fin_cases a <;> rfl

/-- Over the 16 grid points: the block of `x` that a point reads sits where the block of the result it writes sits;
    the two rows are read whole, at block (0, 0), by every point; the result's blocks are numbered 0 … 15 down the
    rows and span all columns. -/
theorem blockPositions : ∀ t : Fin cfg0.N, win0_0.index t (0 : Fin 2) = win0_3.index t (0 : Fin 2)
    ∧ win0_0.index t (1 : Fin 2) = win0_3.index t (1 : Fin 2)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 15 ∧ win0_3.index t (1 : Fin 2) = 0 :=
  (by decide +kernel : ∀ t : Fin grid0.N, _)

/-- Every one of the 16 row blocks is some grid point's. -/
theorem everyRowBlock : ∀ q0 : Fin 16, ∃ t : Fin cfg0.N, win0_3.index t = ![q0.val, 0] :=
  (by decide +kernel : ∀ q0 : Fin 16, ∃ t : Fin grid0.N, win0_3.index t = ![q0.val, 0])

/-! ## What a grid point writes back -/

/-- Grid point t writes back block t of the column scale-and-shift of the three arguments. -/
theorem flushed_eq (c : Dev nD) (t : Fin cfg0.N) :
    (dats m 0 c).flushed 3 t = ((cfg0.win 3).blk t).view.read (Elt Ideal)
      (scaleShift (m ((c : Thread nD τ).loc main_arg0)) (quantised (m ((c : Thread nD τ).loc main_arg1)))
        (m ((c : Thread nD τ).loc main_arg2))) := by
  rw [Value.flushed3]
  unfold out0_3
  -- the one store's block, as one function of the three loaded blocks: a product and a sum at each index
  have storedBlock : ∀ (P0 : Vec Ideal S256x8192 .f32) (P1 P2 : Vec Ideal S1x8192 .f32),
      View.canon [⟨r0_0, k0_pay1 P0 P1 P2⟩] = Value.E3 P0 P1 P2 :=
    fun P0 P1 P2 => funext (Value.canon3_eq P0 P1 P2)
  rw [storedBlock]
  simp only [View.ld_unit_zero (S := S256x8192) zeroOffsets, View.ld_unit_zero (S := S1x8192) zeroOffsets]
  obtain ⟨e0, e1, e2, e3, e4, e5, e6, e7⟩ := blockPositions t
  funext j
  have hj0 : (j 0).val < 256 := (j 0).isLt
  have hj1 : (j 1).val < 8192 := (j 1).isLt
  show FloatOps.addf (FloatOps.mulf (V m c main_arg0 (((cfg0.win 0).blk t).view.emb (Value.ix3_0 j)))
        (V m c main_v12 (((cfg0.win 1).blk t).view.emb (Value.ix3_1 j))))
      (V m c main_v13 (((cfg0.win 2).blk t).view.emb (Value.ix3_2 j)))
    = scaleShift (m ((c : Thread nD τ).loc main_arg0)) (quantised (m ((c : Thread nD τ).loc main_arg1)))
        (m ((c : Thread nD τ).loc main_arg2)) (((cfg0.win 3).blk t).view.emb j)
  -- the block of `x` is read where the result's block sits
  have h0 : ((cfg0.win 0).blk t).view.emb (Value.ix3_0 j) = ((cfg0.win 3).blk t).view.emb j := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 8192 + 1 * (j 1).val = win0_3.index t (1 : Fin 2) * 8192 + 1 * (j 1).val; omega
  -- each row is read at the result's column
  have h1 : V m c main_v12 (((cfg0.win 1).blk t).view.emb (Value.ix3_1 j))
      = quantised (m ((c : Thread nD τ).loc main_arg1)) (colOf (((cfg0.win 3).blk t).view.emb j)) := by
    rw [scaleRow_eq]
    refine shapeCast_apply _ _ _ _ ?_
    rw [Shape.rowMajor_val_one, Shape.rowMajor_val_two]
    show win0_3.index t (1 : Fin 2) * 8192 + 1 * (j 1).val
      = (win0_1.index t (0 : Fin 2) * 1 + 1 * 0) * 8192 + (win0_1.index t (1 : Fin 2) * 8192 + 1 * (j 1).val)
    omega
  have h2 : V m c main_v13 (((cfg0.win 2).blk t).view.emb (Value.ix3_2 j))
      = m ((c : Thread nD τ).loc main_arg2) (colOf (((cfg0.win 3).blk t).view.emb j)) := by
    rw [shiftRow_eq]
    refine shapeCast_apply _ _ _ _ ?_
    show (S8192.rowMajor (colOf (((cfg0.win 3).blk t).view.emb j))).val
      = (S1x8192.rowMajor (((cfg0.win 2).blk t).view.emb (Value.ix3_2 j))).val
    rw [Shape.rowMajor_val_one, Shape.rowMajor_val_two]
    show win0_3.index t (1 : Fin 2) * 8192 + 1 * (j 1).val
      = (win0_2.index t (0 : Fin 2) * 1 + 1 * 0) * 8192 + (win0_2.index t (1 : Fin 2) * 8192 + 1 * (j 1).val)
    omega
  rw [h0, h1, h2, V_main_arg0]
  rfl

/-! ## The blocks fill the array -/

/-- An index is in grid point t's block when each coordinate is in the block's range on its axis. -/
theorem mem_blk (t : Fin cfg0.N) (i : S4096x8192.Idx) :
    i ∈ ((cfg0.win 3).blk t).view.set ↔ ∀ a : Fin 2, win0_3.index t a * S256x8192.size a ≤ (i a).val
      ∧ (i a).val < win0_3.index t a * S256x8192.size a + S256x8192.size a := by
  show i ∈ ((View.whole main_v14).slice (win0_3.rect t)).set ↔ _
  rw [View.set_slice_whole, Rect.mem_set_unit]
  exact Iff.rfl

/-- Every index of the result lies in the block of the grid point numbered by its row divided by 256. -/
theorem covered (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := everyRowBlock ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 8192 ≤ (i 1).val ∧ (i 1).val < win0_3.index t (1 : Fin 2) * 8192 + 8192; omega

/-- The result array after the run is the column scale-and-shift of the three arguments. -/
theorem final (c : Dev nD) :
    (dats m 0 c).arrAt 3 cfg0.N
      = scaleShift (m ((c : Thread nD τ).loc main_arg0)) (quantised (m ((c : Thread nD τ).loc main_arg1)))
          (m ((c : Thread nD τ).loc main_arg2)) :=
  (dats m 0 c).arrAt_eq_of_cover 3 _ (fun t _ => flushed_eq m c t) covered

/-! ## The run -/

/-- Every weakly fair execution of the kernel's program terminates with the result array at the column
    scale-and-shift of the arguments and the arguments unchanged. -/
theorem run : θ_run defs (onTc (τ := τ) (main (F := Ideal))) ⟨m, fun _ => 0, ρ⟩ fun r => ∀ c : Dev nD,
      r.2.mem ((c : Thread nD τ).loc main_v14)
        = scaleShift (m ((c : Thread nD τ).loc main_arg0)) (quantised (m ((c : Thread nD τ).loc main_arg1)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ScaleShiftValue

end
-- ==== Proof.lean ====
/-
  A per-column scale and shift of a 4096 × 8192 array: the kernel against its reference, on the extended reals.

  Both programs take an array `x` (4096 × 8192), a weight vector `w` and a bias vector `b` (length 8192 each), and
  return

      out (r, k) = x (r, k) · q k + b k,      q = sign (sign (w + θ) + sign (w − θ)),   θ = 0.7 · (Σ |w|) / 8192.

  The quantised vector `q` is computed on the host by both programs with the same operations and the same three
  literals (zero, the single-precision 0.7, and 8192), so the two terms for `q` are one term and the proof never
  opens it. What differs is only the arrangement of the last step:

    • the reference repeats `q` and `b` over all 4096 rows and forms x · Q + B in one piece;
    • the kernel reshapes `q` and `b` to 1 × 8192 rows and, for each of 16 blocks of 256 rows, multiplies the block of
      `x` by the first row repeated down the block and adds the second row repeated likewise.

  Read at an index (r, k), each arrangement is the product x (r, k) · q k followed by the sum with b k — the same two
  operations on the same three extended reals. No commutation, regrouping or distribution is involved, so nothing
  depends on the entries being finite and the precondition is not used.

  The modules: Spec states the function; RefSide reads the reference's last stage at an index and finds the
  function; KernelSide reads what each grid point writes back, finds block t of the function, and shows the 16
  blocks fill the array. The three frame statements come from the generated frame proofs (the kernel's at both
  instances) and, for the reference, from its generated run with the result forgotten. The idealisation rewrote no
  operation of the kernel, so there is nothing to preserve.
-/
import proofs.«108378_j27736898797833_1_alg».proof.Defs
import proofs.«108378_j27736898797833_1_alg».proof.Proof.Gen.Kernel
import proofs.«108378_j27736898797833_1_alg».proof.Proof.Gen.Kernel.Skeleton
import proofs.«108378_j27736898797833_1_alg».proof.Proof.Gen.Kernel.Launch
import proofs.«108378_j27736898797833_1_alg».proof.Proof.Gen.Kernel.Points
import proofs.«108378_j27736898797833_1_alg».proof.Proof.Gen.Kernel.Frame
import proofs.«108378_j27736898797833_1_alg».proof.Proof.Gen.KernelIdeal
import proofs.«108378_j27736898797833_1_alg».proof.Proof.Gen.KernelIdeal.Skeleton
import proofs.«108378_j27736898797833_1_alg».proof.Proof.Gen.KernelIdeal.Launch
import proofs.«108378_j27736898797833_1_alg».proof.Proof.Gen.KernelIdeal.Points
import proofs.«108378_j27736898797833_1_alg».proof.Proof.Gen.KernelIdeal.Frame
import proofs.«108378_j27736898797833_1_alg».proof.Proof.Gen.ReferenceIdeal
import proofs.«108378_j27736898797833_1_alg».proof.Proof.Gen.KernelIdeal.Value
import proofs.«108378_j27736898797833_1_alg».proof.Proof.Gen.ReferenceIdeal.Run
import proofs.«108378_j27736898797833_1_alg».proof.Proof.Gen.ReferenceIdeal.Read
import proofs.«108378_j27736898797833_1_alg».proof.Proof.Gen.Pre_finite_inputs
import proofs.«108378_j27736898797833_1_alg».proof.Proof.Spec
import proofs.«108378_j27736898797833_1_alg».proof.Proof.RefSide
import proofs.«108378_j27736898797833_1_alg».proof.Proof.KernelSide
import Idealize.ShloMosaic.Adequacy
import Idealize.ShloMosaic.Init

noncomputable section

namespace Cert.Proof

open Idealize.ShloMosaic Idealize.ShloMosaic.TcCoe Idealize.SL.Sem
open Cert.ScaleShift (scaleShift quantised)

/-- The kernel as printed runs to the end, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on `x`, `w` and `b`, both programs end with the result array at the column
    scale-and-shift x (r, k) · q k + b k of those arguments. -/
theorem algebraic : Cert.algebraic_KernelIdeal_ReferenceIdeal := by
  intro m ρ m' ρ' _ hagree
  refine ⟨fun c => scaleShift (m ((c : Thread Cert.KernelIdeal.nD Cert.KernelIdeal.τ).loc Cert.KernelIdeal.main_arg0))
      (quantised (m ((c : Thread Cert.KernelIdeal.nD Cert.KernelIdeal.τ).loc Cert.KernelIdeal.main_arg1)))
      (m ((c : Thread Cert.KernelIdeal.nD Cert.KernelIdeal.τ).loc Cert.KernelIdeal.main_arg2)),
    Cert.KernelIdeal.ScaleShiftValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ScaleShift.reference_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
